-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S8192x16384 : Shape := ⟨2, ![8192, 16384]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S4x2048x16384 : Shape := ⟨3, ![4, 2048, 16384]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x16384, .f32⟩
  | .hbm, ⟨6, _⟩ => ⟨S4x2048x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 16, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S512x1024 : S1x1024.Broadcasts S512x1024
  shapeCasts_S8192x16384_S4x2048x16384 : S8192x16384.ShapeCasts S4x2048x16384
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x16384.size a
  hwx0_4 : ∀ i : grid0.Coords, EltTy.bits .f32 = 32 ∨ (Rect.block (s := S8192x16384) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibTileSum.lean ====
/-
  A finite sum cut into tiles of equal length: a sum over `K * n` consecutive terms is the sum, over the `n` tiles,
  of each tile's `K` terms; for a sum indexed by `Fin N` with `N = K * n`, term `d` of tile `s` is the term at
  position `K * s + d`.
-/
import Mathlib.Algebra.BigOperators.Fin

namespace Cert.TileSum

open Finset

/-- A sum over the first `K * n` naturals is the sum over `n` tiles of `K` consecutive terms each. -/
theorem sum_range_tiles {M : Type*} [AddCommMonoid M] (g : ℕ → M) (K : ℕ) : ∀ n : ℕ,
    ∑ k ∈ range (K * n), g k = ∑ s ∈ range n, ∑ d ∈ range K, g (K * s + d)
  | 0 => by simp
  | n + 1 => by rw [Nat.mul_succ, sum_range_add, sum_range_tiles g K n, sum_range_succ]

/-- A sum over `Fin N`, `N = K * n`, is the sum over `n` tiles of the `K` terms at positions `K * s + d` (each
    position is below `N`; the other branch is never taken). -/
theorem sum_fin_tiles {M : Type*} [AddCommMonoid M] (K n N : ℕ) (hN : N = K * n) (f : Fin N → M) :
    ∑ i : Fin N, f i
      = ∑ s ∈ range n, ∑ d : Fin K, (if h : K * s + d.val < N then f ⟨K * s + d.val, h⟩ else 0) := by
  have e : ∑ i : Fin N, f i = ∑ k ∈ range N, (if h : k < N then f ⟨k, h⟩ else 0) := by
    rw [sum_range]
    exact Fintype.sum_congr _ _ fun i => by rw [dif_pos i.isLt]
  rw [e]
  subst hN
  rw [sum_range_tiles]
  refine sum_congr rfl fun s _ => ?_
  rw [sum_range]

end Cert.TileSum
-- ==== Proof.Spec.lean ====
/-
  The specification of the quantized linear layer, on the extended reals.

  With x flattened to 8192 rows of 4096 features, w the 16384 x 4096 integer weights, s the per-channel scales
  and b the bias, entry (r, o) of the result is

      (sum over k < 4096 of  x(r, k) * (w(o, k) * s(o)))  +  b(o).

  The kernel computes the sum in four tiles of 1024 consecutive features, adding one tile's partial sum to an
  accumulator per step. A sum over 4096 consecutive terms is the sum over the four tiles of each tile's 1024 terms:
  that is only a regrouping of a finite sum, which holds in any commutative monoid, so no entry need be finite.
-/
import Idealize.ShloMosaic.PureOps.Ideal
import Idealize.ShloMosaic.Lib.ValueIdx
import proofs.«138458_j2173253452596_1_alg».proof.Proof.LibTileSum

noncomputable section

namespace Cert.QLinear

open Idealize.ShloMosaic Idealize.ShloMosaic.ValueIdx

/-- x with its two leading axes flattened; the weights; a per-channel vector; the flat result. -/
abbrev SX2 : Shape := ⟨2, ![8192, 4096]⟩
abbrev SW : Shape := ⟨2, ![16384, 4096]⟩
abbrev SV : Shape := ⟨1, ![16384]⟩
abbrev SO2 : Shape := ⟨2, ![8192, 16384]⟩

variable (x : FVec Ideal SX2 .f32) (w : Vec Ideal SW .i32) (s b : FVec Ideal SV .f32)

/-- One term of the contraction: feature `k` of row `r` times the dequantized weight of channel `o` at `k`. -/
def term (r : Fin 8192) (o : Fin 16384) (k : Fin 4096) : EReal :=
  x (ix2 r k) * (FloatOps.sitofp (F := Ideal) .f32 (w (ix2 o k)) * s (ix1 o))

/-- Tile `t` of the contraction: its 1024 terms, at features `1024 * t + d`. (Every such feature with `t < 4` is
    below 4096; the other branch is never taken there.) -/
def tile (r : Fin 8192) (o : Fin 16384) (t : ℕ) : EReal :=
  ∑ d : Fin 1024, (if h : 1024 * t + d.val < 4096 then term x w s r o ⟨1024 * t + d.val, h⟩ else 0)

/-- The first `n` tiles, added up. -/
def tiles (r : Fin 8192) (o : Fin 16384) (n : ℕ) : EReal := ∑ t ∈ Finset.range n, tile x w s r o t

theorem tiles_one (r : Fin 8192) (o : Fin 16384) : tiles x w s r o 1 = tile x w s r o 0 := by
  unfold tiles; rw [Finset.sum_range_one]

theorem tiles_succ (r : Fin 8192) (o : Fin 16384) (n : ℕ) :
    tiles x w s r o (n + 1) = tiles x w s r o n + tile x w s r o n := by
  unfold tiles; rw [Finset.sum_range_succ]

/-- All four tiles together are the whole contraction. -/
theorem tiles_four (r : Fin 8192) (o : Fin 16384) : tiles x w s r o 4 = ∑ k : Fin 4096, term x w s r o k :=
  (Cert.TileSum.sum_fin_tiles 1024 4 4096 rfl (term x w s r o)).symm

/-- Entry `(r, o)` of the layer's flat result. -/
def entry (r : Fin 8192) (o : Fin 16384) : EReal := (∑ k : Fin 4096, term x w s r o k) + b (ix1 o)

/-- The layer's flat result. -/
def G2 : FVec Ideal SO2 .f32 := fun j => entry x w s b (j 0) (j 1)

theorem G2_apply (r : Fin 8192) (o : Fin 16384) : G2 x w s b (ix2 r o) = entry x w s b r o := rfl

end Cert.QLinear

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.Payloads.lean ====
/-
  The kernel body's three stored values, read at an entry, on the extended reals.

  * the reset value is zero everywhere;
  * the accumulator update at entry (p, q) is the old accumulator at (p, q) plus the sum over the 1024 features d
    of the step of  x_block(p, d) * (w_block(q, d) * scale_block(q)):  a product of the x block with the TRANSPOSE of
    the dequantized weight block (both operands are contracted along their second axis), the changes of float format
    being the identity on exact values, the scale column spread along the rows of the weight block;
  * the output value at (p, q) is the accumulator at (p, q) plus the bias block at q (the bias row spread over the rows).
-/
import proofs.«138458_j2173253452596_1_alg».proof.Proof.Gen.KernelIdeal.Skeleton
import proofs.«138458_j2173253452596_1_alg».proof.Proof.LibMatmulNT
import proofs.«138458_j2173253452596_1_alg».proof.Proof.LibColumns
import Idealize.ShloMosaic.Lib.ValueLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.QLinear.Payloads

open Cert.KernelIdeal Cert.KernelIdeal.Gen

/-! ## Where the product's operand indices come from -/

theorem dot_l0 (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem dot_l1 (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q

theorem dot_r0 (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

theorem dot_r1 (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-! ## The three stored values at an entry -/

/-- The reset value is zero. -/
theorem pay1_apply (p : Fin 512) (q : Fin 1024) : k0_pay1 (F := Ideal) (ix2 p q) = 0 := by
  unfold k0_pay1
  rw [shapeCast_self]
  exact Ideal.ofBits_zero_f32

/-- The accumulator update: old value plus this step's 1024 products. -/
theorem pay2_apply (v3 : FVec Ideal S512x1024 .f32) (v6 : Vec Ideal S1024x1024 .i32) (v8 : FVec Ideal S1024 .f32)
    (v13 : FVec Ideal S512x1024 .f32) (p : Fin 512) (q : Fin 1024) :
    k0_pay2 (F := Ideal) v3 v6 v8 v13 (ix2 p q)
      = v13 (ix2 p q) + ∑ d : Fin 1024, v3 (ix2 p d) * (FloatOps.sitofp (F := Ideal) .f32 (v6 (ix2 q d)) * v8 (ix1 q)) := by
  unfold k0_pay2
  rw [shapeCast_self]
  refine congrArg (v13 (ix2 p q) + ·) ?_
  refine (Cert.PlainDotNT.matmul_rows_rows_zero_apply dot_S512x1024_S1024x1024_S512x1024_1_1_0_0_n_n none rfl rfl dot_l0 dot_l1 dot_r0 dot_r1 _ _ p q).trans ?_
  refine Finset.sum_congr rfl fun d _ => ?_
  show shapeCast S512x1024 v3 _ (ix2 p d)
      * (FloatOps.sitofp (F := Ideal) .f32 (v6 (ix2 q d)) * broadcastTo S1024x1024 (shapeCast S1024x1 v8 _) _ (ix2 q d)) = _
  rw [shapeCast_self, Cert.Columns.broadcastTo_a1_ab_apply, Cert.Columns.shapeCast_a_a1_apply]

/-- The output value: accumulator plus bias. -/
theorem pay3_apply (v22 : FVec Ideal S512x1024 .f32) (v23 : FVec Ideal S1024 .f32) (p : Fin 512) (q : Fin 1024) :
    k0_pay3 (F := Ideal) v22 v23 (ix2 p q) = v22 (ix2 p q) + v23 (ix1 q) := by
  unfold k0_pay3
  refine congrArg (v22 (ix2 p q) + ·) ?_
  show broadcastTo S512x1024 (shapeCast S1x1024 v23 _) _ (ix2 p q) = _
  rw [broadcastTo_1b_ab_apply, shapeCast_a_1a_apply]

end Cert.QLinear.Payloads

end
-- ==== Proof.Blocks.lean ====
/-
  Where the blocks sit. The grid has 16 x 16 x 4 points, point t = (i * 16 + j) * 4 + k: i = t / 64 picks 512 rows of
  x (and of the result), j = (t / 4) % 16 picks 1024 output channels (rows of the weights, entries of the scale and
  of the bias, columns of the result), k = t % 4 picks 1024 of the 4096 features. An entry of a block is the entry
  of its array at block index times block size plus the position inside the block, axis by axis.
-/
import proofs.«138458_j2173253452596_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.QLinear.Blocks

open Cert.KernelIdeal Cert.KernelIdeal.Gen

/-! ## The block indices, decided over the grid -/

theorem xrow : ∀ t : Fin cfg0.N, win0_0.index t (0 : Fin 2) = t.val / 64 :=
  (by decide +kernel : ∀ t : Fin grid0.N, win0_0.index t (0 : Fin 2) = t.val / 64)
theorem xcol : ∀ t : Fin cfg0.N, win0_0.index t (1 : Fin 2) = t.val % 4 :=
  (by decide +kernel : ∀ t : Fin grid0.N, win0_0.index t (1 : Fin 2) = t.val % 4)
theorem wrow : ∀ t : Fin cfg0.N, win0_1.index t (0 : Fin 2) = t.val / 4 % 16 :=
  (by decide +kernel : ∀ t : Fin grid0.N, win0_1.index t (0 : Fin 2) = t.val / 4 % 16)
theorem wcol : ∀ t : Fin cfg0.N, win0_1.index t (1 : Fin 2) = t.val % 4 :=
  (by decide +kernel : ∀ t : Fin grid0.N, win0_1.index t (1 : Fin 2) = t.val % 4)
theorem spos : ∀ t : Fin cfg0.N, win0_2.index t (0 : Fin 1) = t.val / 4 % 16 :=
  (by decide +kernel : ∀ t : Fin grid0.N, win0_2.index t (0 : Fin 1) = t.val / 4 % 16)
theorem bpos : ∀ t : Fin cfg0.N, win0_3.index t (0 : Fin 1) = t.val / 4 % 16 :=
  (by decide +kernel : ∀ t : Fin grid0.N, win0_3.index t (0 : Fin 1) = t.val / 4 % 16)
theorem orow : ∀ t : Fin cfg0.N, win0_4.index t (0 : Fin 2) = t.val / 64 :=
  (by decide +kernel : ∀ t : Fin grid0.N, win0_4.index t (0 : Fin 2) = t.val / 64)
theorem ocol : ∀ t : Fin cfg0.N, win0_4.index t (1 : Fin 2) = t.val / 4 % 16 :=
  (by decide +kernel : ∀ t : Fin grid0.N, win0_4.index t (1 : Fin 2) = t.val / 4 % 16)

/-! ## An input block's entry is an entry of its array -/

variable {F : FTy → Type} [FloatOps F]
variable (m : (ℓ : Loc nD τ sig) → Buf (Elt F) ℓ)

/-- Entry (p, d) of the x block at point t is x at row (t / 64) * 512 + p and feature 1024 * (t % 4) + d. -/
theorem xblk_apply (c : Dev nD) (t : Fin cfg0.N) (p : Fin 512) (d : Fin 1024) (R : Fin 8192) (K : Fin 4096)
    (hR : R.val = t.val / 64 * 512 + p.val) (hK : K.val = 1024 * (t.val % 4) + d.val) :
    (iblk m c 0 t : Vec F S512x1024 .f32) (ix2 p d) = V m c main_v0 (ix2 R K) := by
  unfold iblk
  rw [View.read_apply]
  show V m c main_v0 (((cfg0.win 0).blk t).view.emb (ix2 p d)) = V m c main_v0 (ix2 R K)
  refine congrArg _ (funext fun a => Fin.ext ?_)
  match a with
  | ⟨0, _⟩ => show win0_0.index t 0 * 512 + 1 * p.val = R.val; rw [xrow t, hR]; omega
  | ⟨1, _⟩ => show win0_0.index t 1 * 1024 + 1 * d.val = K.val; rw [xcol t, hK]; omega

/-- Entry (q, d) of the weight block at point t is the weight of channel (t / 4 % 16) * 1024 + q at feature
    1024 * (t % 4) + d. -/
theorem wblk_apply (c : Dev nD) (t : Fin cfg0.N) (q : Fin 1024) (d : Fin 1024) (O : Fin 16384) (K : Fin 4096)
    (hO : O.val = t.val / 4 % 16 * 1024 + q.val) (hK : K.val = 1024 * (t.val % 4) + d.val) :
    (iblk m c 1 t : Vec F S1024x1024 .i32) (ix2 q d) = V m c main_arg1 (ix2 O K) := by
  unfold iblk
  rw [View.read_apply]
  show V m c main_arg1 (((cfg0.win 1).blk t).view.emb (ix2 q d)) = V m c main_arg1 (ix2 O K)
  refine congrArg _ (funext fun a => Fin.ext ?_)
  match a with
  | ⟨0, _⟩ => show win0_1.index t 0 * 1024 + 1 * q.val = O.val; rw [wrow t, hO]; omega
  | ⟨1, _⟩ => show win0_1.index t 1 * 1024 + 1 * d.val = K.val; rw [wcol t, hK]; omega

/-- Entry q of the scale block at point t is the scale of channel (t / 4 % 16) * 1024 + q. -/
theorem sblk_apply (c : Dev nD) (t : Fin cfg0.N) (q : Fin 1024) (O : Fin 16384)
    (hO : O.val = t.val / 4 % 16 * 1024 + q.val) :
    (iblk m c 2 t : Vec F S1024 .f32) (ix1 q) = V m c main_arg2 (ix1 O) := by
  unfold iblk
  rw [View.read_apply]
  show V m c main_arg2 (((cfg0.win 2).blk t).view.emb (ix1 q)) = V m c main_arg2 (ix1 O)
  refine congrArg _ (funext fun a => Fin.ext ?_)
  match a with
  | ⟨0, _⟩ => show win0_2.index t 0 * 1024 + 1 * q.val = O.val; rw [spos t, hO]; omega

/-- Entry q of the bias block at point t is the bias of channel (t / 4 % 16) * 1024 + q. -/
theorem bblk_apply (c : Dev nD) (t : Fin cfg0.N) (q : Fin 1024) (O : Fin 16384)
    (hO : O.val = t.val / 4 % 16 * 1024 + q.val) :
    (iblk m c 3 t : Vec F S1024 .f32) (ix1 q) = V m c main_arg3 (ix1 O) := by
  unfold iblk
  rw [View.read_apply]
  show V m c main_arg3 (((cfg0.win 3).blk t).view.emb (ix1 q)) = V m c main_arg3 (ix1 O)
  refine congrArg _ (funext fun a => Fin.ext ?_)
  match a with
  | ⟨0, _⟩ => show win0_3.index t 0 * 1024 + 1 * q.val = O.val; rw [bpos t, hO]; omega

end Cert.QLinear.Blocks

end
-- ==== Proof.Pieces.lean ====
/-
  What each of the kernel body's three control cases leaves behind, as values.

  The body keeps a 512 x 1024 accumulator in a scratch buffer. At the first step along the contraction axis
  it stores zeros there; at every step it stores back "accumulator + (x block) . (dequantized weight block)^T";
  at the last step it also stores "accumulator + bias row" into the output block. Every store and every load
  goes through the whole buffer, so what a buffer holds after the body is the payload of the last store into
  it, and a load after a store reads that store's payload.
-/
import proofs.«138458_j2173253452596_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.QLinear.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- First step of a contraction (the accumulator is reset): the scratch ends at the step's product added to the
    zero block. -/
theorem scratch_A (c : Dev nD) (i : grid0.Coords) (a3 : Memref sig .tc .vmem S512x1024 .f32) (h3 : a3.IsWhole) (a4 : Memref sig .tc .vmem S1024x1024 .i32) (h4 : a4.IsWhole) (a5 : Memref sig .tc .vmem S1024 .f32) (h5 : a5.IsWhole) (a6 : Memref sig .tc .vmem S1024 .f32) (h6 : a6.IsWhole) (a7 : Memref sig .tc .vmem S512x1024 .f32) (h7 : a7.IsWhole) (a8 : Memref sig .tc .vmem S512x1024 .f32) (h8 : a8.IsWhole) (hc0 : cond0_0 i) (hc1 : ¬cond0_1 i) (x0 : Vec F S512x1024 .f32) (x1 : Vec F S1024x1024 .i32) (x2 : Vec F S1024 .f32) (x3 : Vec F S1024 .f32) :
    sout0_A_0 c i a3 h3 a4 h4 a5 h5 a6 h6 a7 h7 a8 h8 hc0 hc1 x0 x1 x2 x3 = k0_pay2 x0 x1 x2 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) hz2, View.readCov_unit_zero (S := S512x1024) _ hz2]
  simp only [View.readAt_eq_ld, h3.read_unread, h4.read_unread, h5.read_unread, h6.read_unread, h8.read_unread,
    View.ld_unit_zero (S := S512x1024) hz2, View.ld_unit_zero (S := S1024x1024) hz2, View.ld_unit_zero (S := S1024) hz1]

/-- A middle step: the scratch ends at the step's product added to what the step before left. -/
theorem scratch_B (c : Dev nD) (i : grid0.Coords) (a3 : Memref sig .tc .vmem S512x1024 .f32) (h3 : a3.IsWhole) (a4 : Memref sig .tc .vmem S1024x1024 .i32) (h4 : a4.IsWhole) (a5 : Memref sig .tc .vmem S1024 .f32) (h5 : a5.IsWhole) (a6 : Memref sig .tc .vmem S1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : ¬cond0_1 i) (x0 : Vec F S512x1024 .f32) (x1 : Vec F S1024x1024 .i32) (x2 : Vec F S1024 .f32) (x3 : Vec F S1024 .f32) (xs0 : Vec F S512x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S512x1024) hz2, View.ld_unit_zero (S := S1024x1024) hz2, View.ld_unit_zero (S := S1024) hz1]

/-- The last step: the scratch ends as in a middle step, -/
theorem scratch_C (c : Dev nD) (i : grid0.Coords) (a3 : Memref sig .tc .vmem S512x1024 .f32) (h3 : a3.IsWhole) (a4 : Memref sig .tc .vmem S1024x1024 .i32) (h4 : a4.IsWhole) (a5 : Memref sig .tc .vmem S1024 .f32) (h5 : a5.IsWhole) (a6 : Memref sig .tc .vmem S1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x1024 .f32) (x1 : Vec F S1024x1024 .i32) (x2 : Vec F S1024 .f32) (x3 : Vec F S1024 .f32) (xs0 : Vec F S512x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S512x1024) hz2, View.ld_unit_zero (S := S1024x1024) hz2, View.ld_unit_zero (S := S1024) hz1]

/-- and the output block is that accumulator plus the bias row. -/
theorem out_C (c : Dev nD) (i : grid0.Coords) (a3 : Memref sig .tc .vmem S512x1024 .f32) (h3 : a3.IsWhole) (a4 : Memref sig .tc .vmem S1024x1024 .i32) (h4 : a4.IsWhole) (a5 : Memref sig .tc .vmem S1024 .f32) (h5 : a5.IsWhole) (a6 : Memref sig .tc .vmem S1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x1024 .f32) (x1 : Vec F S1024x1024 .i32) (x2 : Vec F S1024 .f32) (x3 : Vec F S1024 .f32) (xs0 : Vec F S512x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz2, View.readCov_unit_zero (S := S512x1024) _ hz2]
  simp only [View.readAt_eq_ld, h3.read_unread, h4.read_unread, h5.read_unread, h6.read_unread, h8.read_unread,
    View.ld_unit_zero (S := S512x1024) hz2, View.ld_unit_zero (S := S1024x1024) hz2, View.ld_unit_zero (S := S1024) hz1]

end Cert.QLinear.Pieces

end
-- ==== Proof.AtPoint.lean ====
/-
  The accumulator and the output block after the body at a grid point, from the three control cases:
  the first step along the features (t % 4 = 0) resets the accumulator and adds the step's product,
  a middle step (t % 4 = 1 or 2) adds the step's product to what the point before left,
  the last step (t % 4 = 3) does the same and also leaves accumulator + bias in the output block.
-/
import proofs.«138458_j2173253452596_1_alg».proof.Proof.Pieces

set_option maxRecDepth 16384

noncomputable section

open Idealize.ShloMosaic Idealize.ShloMosaic.TcCoe Idealize.SL.Sem

namespace Cert.QLinear.AtPoint

open Cert.KernelIdeal Cert.KernelIdeal.Gen Cert.QLinear.Pieces

variable {F : FTy → Type} [FloatOps F]
variable (m : (ℓ : Loc nD τ sig) → Buf (Elt F) ℓ)

theorem acc_first (c : Dev nD) (t : Fin cfg0.N) (h0 : t.val % 4 = 0) (h1 : ¬t.val % 4 = 3) :
    (outsAt0 m c t.val t.isLt).2 = k0_pay2 (iblk m c 0 t) (iblk m c 1 t) (iblk m c 2 t) k0_pay1 := by
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem acc_middle (c : Dev nD) (t : Fin cfg0.N) (h0 : ¬t.val % 4 = 0) (h1 : ¬t.val % 4 = 3) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem acc_last (c : Dev nD) (t : Fin cfg0.N) (h0 : ¬t.val % 4 = 0) (h1 : t.val % 4 = 3) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem out_last (c : Dev nD) (t : Fin cfg0.N) (h0 : ¬t.val % 4 = 0) (h1 : t.val % 4 = 3) :
    (outsAt0 m c t.val t.isLt).1
      = k0_pay3 (k0_pay2 (iblk m c 0 t) (iblk m c 1 t) (iblk m c 2 t) (outsAt0 m c (t.val - 1) (Nat.lt_of_le_of_lt (Nat.sub_le _ _) t.isLt)).2) (iblk m c 3 t) := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.QLinear.AtPoint

end
-- ==== Proof.Invariant.lean ====
/-
  The accumulator, point by point, and the output block.

  Entry (p, q) of the blocks at point t belongs to row (t / 64) * 512 + p of the flattened x and to output channel
  (t / 4 % 16) * 1024 + q. The products the body adds at point t are tile t % 4 of that entry's contraction. The
  accumulator is reset at a point with t % 4 = 0, and the points t - 1 and t have the same row and channel blocks when
  t % 4 is not 0, so after point t the accumulator holds the first t % 4 + 1 tiles added up; at a point with t % 4 = 3
  these are all four tiles, the whole contraction, and the output block is that plus the bias: the layer's entry.
-/
import proofs.«138458_j2173253452596_1_alg».proof.Proof.Spec
import proofs.«138458_j2173253452596_1_alg».proof.Proof.Payloads
import proofs.«138458_j2173253452596_1_alg».proof.Proof.Blocks
import proofs.«138458_j2173253452596_1_alg».proof.Proof.AtPoint

set_option maxRecDepth 16384

noncomputable section

open Idealize.ShloMosaic Idealize.ShloMosaic.TcCoe Idealize.SL.Sem Idealize.ShloMosaic.ValueIdx

namespace Cert.QLinear.Invariant

open Cert.KernelIdeal Cert.KernelIdeal.Gen Cert.QLinear

variable (m : (ℓ : Loc nD τ sig) → Buf (Elt Ideal) ℓ)

/-- The four arrays as the kernel region finds them: x flattened, the weights, the scales, the bias. -/
abbrev X (c : Dev nD) : FVec Ideal SX2 .f32 := V m c main_v0
abbrev Wt (c : Dev nD) : Vec Ideal SW .i32 := V m c main_arg1
abbrev Sc (c : Dev nD) : FVec Ideal SV .f32 := V m c main_arg2
abbrev Bi (c : Dev nD) : FVec Ideal SV .f32 := V m c main_arg3

/-- The four input blocks at a point, as vectors of their literal shapes. -/
abbrev xb (c : Dev nD) (t : Fin cfg0.N) : FVec Ideal S512x1024 .f32 := iblk m c 0 t
abbrev wb (c : Dev nD) (t : Fin cfg0.N) : Vec Ideal S1024x1024 .i32 := iblk m c 1 t
abbrev sb (c : Dev nD) (t : Fin cfg0.N) : FVec Ideal S1024 .f32 := iblk m c 2 t
abbrev bb (c : Dev nD) (t : Fin cfg0.N) : FVec Ideal S1024 .f32 := iblk m c 3 t

theorem hN : cfg0.N = 1024 := N_0

/-- The row of the flattened x, and the output channel, that entry (p, q) of the blocks at point t belongs to. -/
def row (t : Fin cfg0.N) (p : Fin 512) : Fin 8192 :=
  ⟨t.val / 64 * 512 + p.val, by have := t.isLt; have := hN; have := p.isLt; omega⟩
def col (t : Fin cfg0.N) (q : Fin 1024) : Fin 16384 :=
  ⟨t.val / 4 % 16 * 1024 + q.val, by have := q.isLt; omega⟩

/-- The products the body adds at point t, at entry (p, q), are tile t % 4 of that entry's contraction. -/
theorem products_eq_tile (c : Dev nD) (t : Fin cfg0.N) (p : Fin 512) (q : Fin 1024) :
    ∑ d : Fin 1024, xb m c t (ix2 p d) * (FloatOps.sitofp (F := Ideal) .f32 (wb m c t (ix2 q d)) * sb m c t (ix1 q))
      = tile (X m c) (Wt m c) (Sc m c) (row t p) (col t q) (t.val % 4) := by
  unfold tile
  refine Finset.sum_congr rfl fun d _ => ?_
  have hd := d.isLt
  have hlt : 1024 * (t.val % 4) + d.val < 4096 := by omega
  rw [dif_pos hlt]
  unfold term
  have e0 : xb m c t (ix2 p d) = X m c (ix2 (row t p) ⟨1024 * (t.val % 4) + d.val, hlt⟩) :=
    Blocks.xblk_apply m c t p d (row t p) ⟨_, hlt⟩ rfl rfl
  have e1 : wb m c t (ix2 q d) = Wt m c (ix2 (col t q) ⟨1024 * (t.val % 4) + d.val, hlt⟩) :=
    Blocks.wblk_apply m c t q d (col t q) ⟨_, hlt⟩ rfl rfl
  have e2 : sb m c t (ix1 q) = Sc m c (ix1 (col t q)) := Blocks.sblk_apply m c t q (col t q) rfl
  rw [e0, e1, e2]

/-- One step of the body on an accumulator: the accumulator plus that tile. -/
theorem step_apply (c : Dev nD) (t : Fin cfg0.N) (p : Fin 512) (q : Fin 1024) (acc : FVec Ideal S512x1024 .f32) :
    k0_pay2 (F := Ideal) (iblk m c 0 t) (iblk m c 1 t) (iblk m c 2 t) acc (ix2 p q)
      = acc (ix2 p q) + tile (X m c) (Wt m c) (Sc m c) (row t p) (col t q) (t.val % 4) :=
  (Payloads.pay2_apply (xb m c t) (wb m c t) (sb m c t) acc p q).trans
    (congrArg (acc (ix2 p q) + ·) (products_eq_tile m c t p q))

/-- After point n the accumulator holds the first n % 4 + 1 tiles of each entry's contraction, added up. -/
theorem acc_eq (c : Dev nD) : ∀ (n : ℕ) (hn : n < cfg0.N) (p : Fin 512) (q : Fin 1024),
    ((outsAt0 m c n hn).2 : FVec Ideal S512x1024 .f32) (ix2 p q)
      = tiles (X m c) (Wt m c) (Sc m c) (row ⟨n, hn⟩ p) (col ⟨n, hn⟩ q) (n % 4 + 1) := by
  have first : ∀ (n : ℕ) (hn : n < cfg0.N) (p : Fin 512) (q : Fin 1024), n % 4 = 0 →
      ((outsAt0 m c n hn).2 : FVec Ideal S512x1024 .f32) (ix2 p q)
        = tiles (X m c) (Wt m c) (Sc m c) (row ⟨n, hn⟩ p) (col ⟨n, hn⟩ q) (n % 4 + 1) := by
    intro n hn p q h0
    refine (congrFun (AtPoint.acc_first m c ⟨n, hn⟩ h0 (by show ¬n % 4 = 3; omega)) (ix2 p q)).trans ?_
    refine (step_apply m c ⟨n, hn⟩ p q _).trans ?_
    rw [Payloads.pay1_apply, zero_add]
    show tile _ _ _ _ _ (n % 4) = _
    rw [h0, tiles_one]
  intro n
  induction n with
  | zero => intro hn p q; exact first 0 hn p q rfl
  | succ n ih =>
    intro hn p q
    by_cases h0 : (n + 1) % 4 = 0
    · exact first (n + 1) hn p q h0
    · have hprev : n < cfg0.N := Nat.lt_of_succ_lt hn
      have er : row ⟨n, hprev⟩ p = row ⟨n + 1, hn⟩ p :=
        Fin.ext (by show n / 64 * 512 + p.val = (n + 1) / 64 * 512 + p.val; omega)
      have ec : col ⟨n, hprev⟩ q = col ⟨n + 1, hn⟩ q :=
        Fin.ext (by show n / 4 % 16 * 1024 + q.val = (n + 1) / 4 % 16 * 1024 + q.val; omega)
      have ek : n % 4 + 1 = (n + 1) % 4 := by omega
      have hacc : ((outsAt0 m c (n + 1) hn).2 : FVec Ideal S512x1024 .f32)
          = k0_pay2 (F := Ideal) (iblk m c 0 ⟨n + 1, hn⟩) (iblk m c 1 ⟨n + 1, hn⟩) (iblk m c 2 ⟨n + 1, hn⟩)
              (outsAt0 m c n hprev).2 := by
        by_cases h1 : (n + 1) % 4 = 3
        · exact AtPoint.acc_last m c ⟨n + 1, hn⟩ h0 h1
        · exact AtPoint.acc_middle m c ⟨n + 1, hn⟩ h0 h1
      refine (congrFun hacc (ix2 p q)).trans ?_
      refine (step_apply m c ⟨n + 1, hn⟩ p q _).trans ?_
      rw [ih hprev p q, er, ec, ek]
      exact (tiles_succ _ _ _ _ _ _).symm

/-- At a last step (t % 4 = 3) the output block holds the layer's entries of its rows and channels. -/
theorem out_eq (c : Dev nD) (t : Fin cfg0.N) (h3 : t.val % 4 = 3) (p : Fin 512) (q : Fin 1024) :
    ((outsAt0 m c t.val t.isLt).1 : FVec Ideal S512x1024 .f32) (ix2 p q)
      = G2 (X m c) (Wt m c) (Sc m c) (Bi m c) (ix2 (row t p) (col t q)) := by
  have h0 : ¬t.val % 4 = 0 := by omega
  refine (congrFun (AtPoint.out_last m c t h0 h3) (ix2 p q)).trans ?_
  rw [← AtPoint.acc_last m c t h0 h3]
  refine (Payloads.pay3_apply _ (bb m c t) p q).trans ?_
  have e3 : bb m c t (ix1 q) = Bi m c (ix1 (col t q)) := Blocks.bblk_apply m c t q (col t q) rfl
  rw [acc_eq m c t.val t.isLt p q, h3, tiles_four, e3, G2_apply]
  rfl

end Cert.QLinear.Invariant

end
-- ==== Proof.Final.lean ====
/-
  From blocks to the result array.

  The output block is written back at the last step along the features (t % 4 = 3), to rows (t / 64) * 512 .. + 511
  and channels (t / 4 % 16) * 1024 .. + 1023 of the [8192, 16384] array, and it holds the layer's entries there. Every
  entry (r, o) of the array is in the block written at the point ((r / 512) * 16 + o / 1024) * 4 + 3, so after the
  run the array is the layer's flat result; the last host operation views it as a [4, 2048, 16384] array.
-/
import proofs.«138458_j2173253452596_1_alg».proof.Proof.Invariant
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.QLinear.Final

open Cert.KernelIdeal Cert.KernelIdeal.Gen Cert.QLinear Cert.QLinear.Invariant Idealize.ShloMosaic.StableHlo

variable (m : (ℓ : Loc nD τ sig) → Buf (Elt Ideal) ℓ) (ρ : Dev nD → PrngReg)

/-- The layer's flat result of the arrays as the kernel region finds them. -/
abbrev flatResult (c : Dev nD) : FVec Ideal SO2 .f32 := G2 (X m c) (Wt m c) (Sc m c) (Bi m c)

/-- What a last step writes back is its block of the layer's flat result. -/
theorem flushed_eq (c : Dev nD) (t : Fin cfg0.N) (hf : (cfg0.win 4).flush t = true) :
    (dats m 0 c).flushed 4 t = ((cfg0.win 4).blk t).view.read (Elt Ideal) (flatResult m c) := by
  have h3 : t.val % 4 = 3 := (flush0_4 t).mp hf
  show (cfg0.win 4).cut (grid0.coords t) ((dats m 0 c).after 4 t) = _
  rw [after0_4]
  refine funext fun (j : S512x1024.Idx) => ?_
  obtain ⟨p, q, rfl⟩ : ∃ (p : Fin 512) (q : Fin 1024), j = ix2 p q := ⟨j 0, j 1, eq_ix2 j⟩
  show ((outsAt0 m c t.val t.isLt).1 : FVec Ideal S512x1024 .f32) (ix2 p q)
      = flatResult m c (((cfg0.win 4).blk t).view.emb (ix2 p q))
  rw [out_eq m c t h3 p q]
  refine congrArg _ (funext fun a => Fin.ext ?_)
  match a with
  | ⟨0, _⟩ =>
    show t.val / 64 * 512 + p.val = win0_4.index t 0 * 512 + 1 * p.val
    rw [Blocks.orow t]; omega
  | ⟨1, _⟩ =>
    show t.val / 4 % 16 * 1024 + q.val = win0_4.index t 1 * 1024 + 1 * q.val
    rw [Blocks.ocol t]; omega

/-- An entry of the array is in point t's block iff each coordinate is in the block's range on its axis. -/
theorem mem_blk (t : Fin cfg0.N) (i : S8192x16384.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v1).slice (win0_4.rect t)).set ↔ _
  rw [View.set_slice_whole, Rect.mem_set_unit]
  exact Iff.rfl

/-- Every entry of the array is in the block some last step writes back. -/
theorem cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hlt : ((i 0).val / 512 * 16 + (i 1).val / 1024) * 4 + 3 < cfg0.N := by rw [hN]; omega
  refine ⟨⟨((i 0).val / 512 * 16 + (i 1).val / 1024) * 4 + 3, hlt⟩, (flush0_4 _).mpr (by
    show (((i 0).val / 512 * 16 + (i 1).val / 1024) * 4 + 3) % 4 = 3; omega), ?_⟩
  rw [mem_blk]
  intro a
  match a with
  | ⟨0, _⟩ =>
    show win0_4.index ⟨_, hlt⟩ 0 * 512 ≤ (i 0).val ∧ (i 0).val < win0_4.index ⟨_, hlt⟩ 0 * 512 + 512
    rw [Blocks.orow]
    show (((i 0).val / 512 * 16 + (i 1).val / 1024) * 4 + 3) / 64 * 512 ≤ (i 0).val
      ∧ (i 0).val < (((i 0).val / 512 * 16 + (i 1).val / 1024) * 4 + 3) / 64 * 512 + 512
    omega
  | ⟨1, _⟩ =>
    show win0_4.index ⟨_, hlt⟩ 1 * 1024 ≤ (i 1).val ∧ (i 1).val < win0_4.index ⟨_, hlt⟩ 1 * 1024 + 1024
    rw [Blocks.ocol]
    show (((i 0).val / 512 * 16 + (i 1).val / 1024) * 4 + 3) / 4 % 16 * 1024 ≤ (i 1).val
      ∧ (i 1).val < (((i 0).val / 512 * 16 + (i 1).val / 1024) * 4 + 3) / 4 % 16 * 1024 + 1024
    omega

/-- After the run the kernel's result array is the layer's flat result. -/
theorem final (c : Dev nD) : (dats m 0 c).arrAt 4 cfg0.N = flatResult m c :=
  (dats m 0 c).arrAt_eq_of_cover 4 (flatResult m c) (fun t hf => flushed_eq m c t hf) cover

/-- The program's result: the flat result viewed as [4, 2048, 16384]. -/
abbrev result (c : Dev nD) : FVec Ideal S4x2048x16384 .f32 :=
  shapeCast S4x2048x16384 (flatResult m c) shapeCasts_S8192x16384_S4x2048x16384

/-- What the host operation after the region leaves in the program's result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = flatResult m c :=
    (Pipeline.withArrays_arr spec0 launch0.win.arr_inj c (V0 m c) (fun w => (dats m 0 c).arrAt w cfg0.N) 4).trans
      (final m c)
  refine funext fun i => ?_
  show shapeCast S4x2048x16384 (Pipeline.withArrays (cfgs 0).spec c (V0 m c)
      (fun w => (dats m 0 c).arrAt w (cfgs 0).N) (Proc.devRef .tc main_v1)) shapeCasts_S8192x16384_S4x2048x16384 i = _
  rw [e]

/-- The flattened x the region finds is the first host operation's view of the program's first argument. -/
theorem X_eq (c : Dev nD) :
    X m c = shapeCast S8192x4096 (m ((c : Thread nD τ).loc main_arg0)) shapeCasts_S4x2048x4096_S8192x4096 := by
  show StableHlo.after hostOps0 (fun b => m (c, b)) (Proc.devRef .tc main_v0) = _
  after_results
  rfl

/-- The program's result as a function of what its four arguments held at launch. -/
theorem result_eq (c : Dev nD) :
    result m c = shapeCast S4x2048x16384
      (G2 (shapeCast S8192x4096 (m ((c : Thread nD τ).loc main_arg0)) shapeCasts_S4x2048x4096_S8192x4096)
        (m ((c : Thread nD τ).loc main_arg1)) (m ((c : Thread nD τ).loc main_arg2)) (m ((c : Thread nD τ).loc main_arg3)))
      shapeCasts_S8192x16384_S4x2048x16384 := by
  show shapeCast S4x2048x16384 (G2 (X m c) (Wt m c) (Sc m c) (Bi m c)) _ = _
  rw [X_eq m c, show Wt m c = m ((c : Thread nD τ).loc main_arg1) from V_main_arg1 m c,
    show Sc m c = m ((c : Thread nD τ).loc main_arg2) from V_main_arg2 m c,
    show Bi m c = m ((c : Thread nD τ).loc main_arg3) from V_main_arg3 m c]

/-- The run, read: every weakly fair execution of the program ends with its result buffer at the layer's result and
    its four arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.QLinear.Final

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.RefSide.lean ====
/-
  The reference program read at an entry: entry (b, s, o) of its result is the sum over the 4096 features k of
  x(b, s, k) * (w(o, k) * scale(o)), plus bias(o) — the layer's entry at flat row b * 2048 + s of the flattened x.
  So the reference's result is the layer's flat result viewed as a [4, 2048, 16384] array.
-/
import proofs.«138458_j2173253452596_1_alg».proof.Proof.Gen.ReferenceIdeal.Read
import proofs.«138458_j2173253452596_1_alg».proof.Proof.Spec
import proofs.«138458_j2173253452596_1_alg».proof.Proof.LibRank3
import Idealize.ShloMosaic.Lib.ValueIdx
import Idealize.ShloMosaic.PureOps.Ideal.Laws

noncomputable section

open Idealize.ShloMosaic Idealize.ShloMosaic.ValueIdx

namespace Cert.QLinear.RefSide

open Cert.ReferenceIdeal Cert.ReferenceIdeal.Read Cert.QLinear Cert.Rank3

theorem h8192 : (8192 : ℕ) = 4 * 2048 := by norm_num

/-! ## The reference's composed index functions, as coordinates -/

theorem lidx_eq (b : Fin 4) (s : Fin 2048) (o : Fin 16384) (k : Fin 4096) : lidx_main_v4 (ix3 b s o) k = ix3 b s k :=
  funext fun a => Fin.ext (by match a with | ⟨0, _⟩ => rfl | ⟨1, _⟩ => rfl | ⟨2, _⟩ => rfl)

theorem ridx_eq (b : Fin 4) (s : Fin 2048) (o : Fin 16384) (k : Fin 4096) : ridx_main_v4 (ix3 b s o) k = ix2 o k :=
  funext fun a => Fin.ext (by match a with | ⟨0, _⟩ => rfl | ⟨1, _⟩ => rfl)

theorem scale_idx (o : Fin 16384) (k : Fin 4096) : idx_main_v1 (idx_main_v2 (ix2 o k)) = ix1 o :=
  funext fun a => Fin.ext (by match a with | ⟨0, _⟩ => rfl)

theorem bias_idx (b : Fin 4) (s : Fin 2048) (o : Fin 16384) : idx_main_v5 (idx_main_v6 (ix3 b s o)) = ix1 o :=
  funext fun a => Fin.ext (by match a with | ⟨0, _⟩ => rfl)

/-! ## The reference is the layer -/

/-- The reference's last stage is the layer's flat result of the flattened x, viewed as [4, 2048, 16384]. -/
theorem ref_eq (x0 : FVec Ideal S4x2048x4096 .f32) (x1 : Vec Ideal S16384x4096 .i32) (x2 x3 : FVec Ideal S16384 .f32)
    (h0 : S4x2048x4096.ShapeCasts SX2) (h1 : SO2.ShapeCasts S4x2048x16384) :
    val_main_v7 (F := Ideal) x0 x1 x2 x3 = shapeCast S4x2048x16384 (G2 (shapeCast SX2 x0 h0) x1 x2 x3) h1 := by
  funext i
  obtain ⟨b, s, o, rfl⟩ : ∃ (b : Fin 4) (s : Fin 2048) (o : Fin 16384), i = ix3 b s o := ⟨i 0, i 1, i 2, eq_ix3 i⟩
  rw [shapeCast_nc_abc_apply h8192, G2_apply]
  unfold entry
  rw [val_main_v7_apply, val_main_v4_apply, val_main_v6_apply, val_main_v5_apply, bias_idx]
  show (∑ k : Fin 4096, _) + _ = _
  congr 1
  refine Finset.sum_congr rfl fun k _ => ?_
  rw [lidx_eq, ridx_eq, val_main_v3_apply, val_main_v0_apply, val_main_v2_apply, val_main_v1_apply, scale_idx]
  unfold term
  rw [shapeCast_abc_nc_apply h8192]
  rfl

end Cert.QLinear.RefSide

end
-- ==== Proof.lean ====
/-
  A linear layer with integer weights and per-channel scales: for x of shape [4, 2048, 4096], integer weights w of
  shape [16384, 4096], scales s and bias b of length 16384,

      out(b', s', o) = (sum over k < 4096 of x(b', s', k) * (w(o, k) * s(o))) + b(o).

  The kernel flattens x to 8192 rows, tiles the rows by 512, the output channels by 1024 and the features by 1024,
  keeps a 512 x 1024 accumulator across the four feature tiles of one (row tile, channel tile) pair — reset at the
  first, one tile's products added at each, the bias added and the block written out at the last —, and views the
  [8192, 16384] result as [4, 2048, 16384]. The reference multiplies the whole weight matrix by the scales and
  contracts x against it in one product, then adds the bias.

  On the extended reals the two agree entry by entry: a change of float format is the identity on exact values, the
  kernel's matrix product into a zero accumulator is the plain sum of products, and a sum of 4096 terms is the sum of
  its four tiles of 1024 in order — a regrouping of a finite sum, valid in any commutative monoid, so the equality
  needs no finiteness of the inputs. The idealized kernel is the kernel's own text read on exact values (no rewrite
  was applied), so the preservation conjunct is trivial; the three frame conjuncts are the generated frame runs.
-/
import proofs.«138458_j2173253452596_1_alg».proof.Defs
import proofs.«138458_j2173253452596_1_alg».proof.Proof.Gen.Kernel
import proofs.«138458_j2173253452596_1_alg».proof.Proof.Gen.Kernel.Frame
import proofs.«138458_j2173253452596_1_alg».proof.Proof.Gen.KernelIdeal
import proofs.«138458_j2173253452596_1_alg».proof.Proof.Gen.KernelIdeal.Frame
import proofs.«138458_j2173253452596_1_alg».proof.Proof.Gen.ReferenceIdeal
import proofs.«138458_j2173253452596_1_alg».proof.Proof.Gen.ReferenceIdeal.Run
import proofs.«138458_j2173253452596_1_alg».proof.Proof.Gen.ReferenceIdeal.Read
import proofs.«138458_j2173253452596_1_alg».proof.Proof.Gen.Pre_finite_inputs
import proofs.«138458_j2173253452596_1_alg».proof.Proof.Final
import proofs.«138458_j2173253452596_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- On exact values the kernel's result array and the reference's are the same [4, 2048, 16384] view of the layer's
    flat result of arguments that agree. -/
theorem algebraic : Cert.algebraic_KernelIdeal_ReferenceIdeal := by
  intro m ρ m' ρ' _ hagree
  refine ⟨fun c => Cert.QLinear.Final.result m c, Cert.QLinear.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2]
  exact (Cert.QLinear.RefSide.ref_eq _ _ _ _ _ _).trans (Cert.QLinear.Final.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
